-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x600000 32) (main_arg2 : FVec F S600000x128 .f32) (main_arg3 : FVec F S256x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S5000x128 : Shape := ⟨2, ![5000, 128]⟩
abbrev S1x128 : Shape := ⟨2, ![1, 128]⟩

abbrev nBuf : Space → Nat
  | .hbm => 34
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S50000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S50000x128, .f32⟩
  | .hbm, ⟨31, _⟩ => ⟨S128x128, .f32⟩
  | .hbm, ⟨32, _⟩ => ⟨S128x128, .f32⟩
  | .hbm, ⟨33, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x256 : Shape := ⟨2, ![50000, 256]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S50000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S50000x128, .f32⟩
  | .hbm, ⟨31, _⟩ => ⟨S50000x256, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.MlpSpec.lean ====
/-
  A two-layer perceptron applied to every node, over the node's own features joined with the features aggregated from
  its edges.

  For one node, with feature row `xr` and aggregate row `er` (128 entries each), the first layer's unit `l` is
      firstLayer l = max (Σ_k xr k · A (k, l) + Σ_k er k · B (k, l) + b1 l) 0
  where `A` and `B` are the upper and lower 128 rows of the 256 × 128 weight matrix, and the output column `q` is
      rowOut q = Σ_l firstLayer l · W2 (l, q) + b2 q.
  The whole result is `rowOut` of each node's two rows: a result row depends on that node's rows only.

  Joining the two rows into one row of 256 and multiplying by the whole 256 × 128 matrix gives the same first layer:
  a sum over 256 = 128 + 128 terms is the sum of its two halves.  Only the commutative monoid structure of the
  extended reals' addition is used, so nothing here asks an entry to be finite.
-/
import Idealize.ShloMosaic.PureOps.Ideal
import Idealize.ShloMosaic.PureOps.Ideal.Laws
import Idealize.ShloMosaic.Lib.ValueIdx

noncomputable section

open scoped BigOperators

namespace Cert.MlpSpec

open Idealize.ShloMosaic Idealize.ShloMosaic.ValueIdx

/-- The node arrays' shape, a square weight matrix's, the tall first-layer matrix's, and a bias row's. -/
abbrev Nodes : Shape := ⟨2, ![50000, 128]⟩
abbrev Sq : Shape := ⟨2, ![128, 128]⟩
abbrev Tall : Shape := ⟨2, ![256, 128]⟩
abbrev Bias : Shape := ⟨1, ![128]⟩

/-- The first layer's unit `l` for one node: the node's row against `A`, its aggregate row against `B`, the bias,
    and the rectifier. -/
def firstLayer (xr er : Fin 128 → EReal) (A B : Sq.Idx → EReal) (b1 : Bias.Idx → EReal) (l : Fin 128) : EReal :=
  max ((∑ k : Fin 128, xr k * A (ix2 k l)) + (∑ k : Fin 128, er k * B (ix2 k l)) + b1 (ix1 l)) 0

/-- The second layer's column `q` for one node. -/
def rowOut (xr er : Fin 128 → EReal) (A B : Sq.Idx → EReal) (b1 : Bias.Idx → EReal) (W2 : Sq.Idx → EReal)
    (b2 : Bias.Idx → EReal) (q : Fin 128) : EReal :=
  (∑ l : Fin 128, firstLayer xr er A B b1 l * W2 (ix2 l q)) + b2 (ix1 q)

/-- Row `k` of the tall matrix's upper half is its row `k`. -/
def upper (W : Tall.Idx → EReal) : Sq.Idx → EReal :=
  fun j => W (ix2 (⟨(j 0).val, Nat.lt_trans (j 0).isLt (by decide)⟩ : Fin 256) (j 1 : Fin 128))

/-- Row `k` of the tall matrix's lower half is its row `128 + k`. -/
def lower (W : Tall.Idx → EReal) : Sq.Idx → EReal :=
  fun j => W (ix2 (⟨128 + (j 0).val, Nat.add_lt_add_left (j 0).isLt 128⟩ : Fin 256) (j 1 : Fin 128))

/-- The perceptron over whole arrays: entry `(r, q)` is `rowOut` of node `r`'s feature row and aggregate row. -/
def mlp (x e : Nodes.Idx → EReal) (W1 : Tall.Idx → EReal) (b1 : Bias.Idx → EReal) (W2 : Sq.Idx → EReal)
    (b2 : Bias.Idx → EReal) : Nodes.Idx → EReal :=
  fun i => rowOut (fun k => x (ix2 (i 0 : Fin 50000) k)) (fun k => e (ix2 (i 0 : Fin 50000) k)) (upper W1) (lower W1) b1 W2 b2
    (i 1 : Fin 128)

theorem mlp_apply (x e : Nodes.Idx → EReal) (W1 : Tall.Idx → EReal) (b1 : Bias.Idx → EReal) (W2 : Sq.Idx → EReal)
    (b2 : Bias.Idx → EReal) (r : Fin 50000) (q : Fin 128) :
    mlp x e W1 b1 W2 b2 (ix2 r q)
      = rowOut (fun k => x (ix2 r k)) (fun k => e (ix2 r k)) (upper W1) (lower W1) b1 W2 b2 q := rfl

/-- A row of 256 entries whose first half is `xr` and second half `er`, against the tall matrix's column `l`: the sum over
    the 256 joined coordinates is the sum over the first 128 against the upper half plus the sum over the last 128 against
    the lower half. -/
theorem joined_sum (xr er : Fin 128 → EReal) (W : Tall.Idx → EReal) (l : Fin 128) (nf : Fin 256 → EReal)
    (hlo : ∀ k : Fin 128, nf ⟨k.val, Nat.lt_trans k.isLt (by decide)⟩ = xr k)
    (hhi : ∀ k : Fin 128, nf ⟨128 + k.val, Nat.add_lt_add_left k.isLt 128⟩ = er k) :
    ∑ k : Fin 256, nf k * W (ix2 k l)
      = (∑ k : Fin 128, xr k * upper W (ix2 k l)) + ∑ k : Fin 128, er k * lower W (ix2 k l) := by
  have split := Fin.sum_univ_add (M := EReal) (a := 128) (b := 128) fun k => nf k * W (ix2 k l)
  refine split.trans ?_
  congr 1
  · exact Finset.sum_congr rfl fun k _ => by rw [← hlo k]; rfl
  · exact Finset.sum_congr rfl fun k _ => by rw [← hhi k]; rfl

end Cert.MlpSpec

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«125193_j2843268350529_1_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.KernelRow.lean ====
/-
  One grid point's block of the kernel, entry by entry: the body's stored value at row `p` and column `q` of the block is
  `MlpSpec.rowOut` of row `p` of the feature block and row `p` of the aggregate block.

  Changes of float format are the identity on the extended reals, and a product into a zero accumulator is the plain sum
  over the contracted coordinate, so the two half products added together are the first layer's two sums; the bias row is
  a [128] vector laid as one row and repeated down the 5000 rows.
-/
import proofs.«125193_j2843268350529_1_alg».proof.Proof.Gen.KernelIdeal.Skeleton
import proofs.«125193_j2843268350529_1_alg».proof.Proof.MlpSpec
import proofs.«125193_j2843268350529_1_alg».proof.Proof.LibMatmul2
import Idealize.ShloMosaic.Lib.ValueLayout
import Idealize.ShloMosaic.Lib.Pipeline.Value
import Idealize.ShloMosaic.Lib.ValueIdx

noncomputable section

open scoped BigOperators

namespace Cert.KernelIdeal.Row

open Cert.KernelIdeal Cert.KernelIdeal.Gen Cert.MlpSpec
open Idealize.ShloMosaic Idealize.ShloMosaic.ValueIdx

/-- The left operand's row in a block product is the result's row. -/
theorem lhs_row (j : S5000x128.Idx) (c : dot_S5000x128_S128x128_S5000x128_1_0_0_1_n_n.contr.Idx) :
    (dot_S5000x128_S128x128_S5000x128_1_0_0_1_n_n.lhsIdx j c 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column in a block product is the result's column. -/
theorem rhs_col (j : S5000x128.Idx) (c : dot_S5000x128_S128x128_S5000x128_1_0_0_1_n_n.contr.Idx) :
    (dot_S5000x128_S128x128_S5000x128_1_0_0_1_n_n.rhsIdx j c 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 × 128 block times a 128 × 128 matrix into the zero accumulator, at `(p, q)`: the sum over the 128 shared
    coordinates. -/
theorem product_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) :=
  LibMatmul2.matmul_zero_apply dot_S5000x128_S128x128_S5000x128_1_0_0_1_n_n rfl rfl rfl rfl lhs_row rhs_col none a b p q

/-- A bias vector laid as one row and repeated down the block's rows reads, at `(p, q)`, its entry `q`. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The body's stored value at `(p, q)` of the block. -/
theorem pay_apply (v0 v2 : Vec Ideal S5000x128 .f32) (v5 v8 : Vec Ideal S128x128 .f32) (v14 : Vec Ideal S128 .f32)
    (v21 : Vec Ideal S128x128 .f32) (v24 : Vec Ideal S128 .f32) (p : Fin 5000) (q : Fin 128) :
    k0_pay1 (F := Ideal) v0 v2 v5 v8 v14 v21 v24 (ix2 p q)
      = rowOut (fun k => v0 (ix2 p k)) (fun k => v2 (ix2 p k)) v5 v8 v14 v21 v24 q := by
  unfold k0_pay1
  rw [addf_apply, product_apply, bias_apply]
  unfold rowOut
  refine congrArg (· + v24 (ix1 q)) (Finset.sum_congr rfl fun l _ => ?_)
  refine congrArg (· * v21 (ix2 l q)) ?_
  rw [truncf_apply, maximumf_apply, addf_apply, addf_apply, product_apply, product_apply, bias_apply, broadcast_apply]
  simp only [truncf_apply, shapeCast_self]
  show max _ (Ideal.ofBits .f32 0x00000000#32) = _
  rw [Ideal.ofBits_zero_f32]
  rfl

end Cert.KernelIdeal.Row

end
-- ==== Proof.KernelFound.lean ====
/-
  What the kernel's region finds, and where its windows sit.

  The grid has ten points.  Point `t` stages rows `5000 t … 5000 t + 4999` of the feature array and of the aggregate array and
  writes back the same rows of the result; the two 128 × 128 halves of the first matrix, the second matrix and the two bias
  rows are staged whole at every point.  The two halves are the host's slices of the 256 × 128 matrix: its rows `k` and
  `128 + k`.
-/
import proofs.«125193_j2843268350529_1_alg».proof.Proof.Gen.KernelIdeal.Frame
import proofs.«125193_j2843268350529_1_alg».proof.Proof.MlpSpec
import Idealize.ShloMosaic.Lib.StableHlo.Run
import Idealize.ShloMosaic.Lib.ValueLayout

noncomputable section

namespace Cert.KernelIdeal.Found

open Cert.KernelIdeal Cert.KernelIdeal.Gen Cert.MlpSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The printed index maps, decided over the ten points: the two row-blocked inputs and the output are at block row `t`,
    every other window at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

theorem point_lt (t : Fin cfg0.N) : t.val < 10 := by
  have h : t.val < grid0.N := t.isLt
  rwa [N_0] at h

/-- Row `p` of point `t`'s block is row `5000 t + p` of the array. -/
def rowOf (t : Fin cfg0.N) (p : Fin 5000) : Fin 50000 :=
  ⟨t.val * 5000 + p.val, by have := point_lt t; have := p.isLt; omega⟩

/-! ## The arrays the region finds -/

/-- The upper half of the first matrix, as the host's slice leaves it. -/
theorem found_upper (c : Dev nD) : (V m c main_v19 : S128x128.Idx → EReal) = upper (m ((c : Thread nD τ).loc main_arg3)) := by
  have e : (V m c main_v19 : S128x128.Idx → EReal)
      = extractStridedSlice S128x128 ![0, 0] (m ((c : Thread nD τ).loc main_arg3)) slices_S256x128_S128x128_0_0 := by
    dsimp only [Gen.V, Gen.hostOps0]; after_results
  rw [e]
  funext j
  obtain ⟨a, b, rfl⟩ : ∃ (a : Fin 128) (b : Fin 128), j = ix2 a b := ⟨j 0, j 1, eq_ix2 j⟩
  exact slice2_axis0_apply 0 _ _ a b ⟨a.val, Nat.lt_trans a.isLt (by decide)⟩ (Nat.zero_add _).symm

/-- The lower half of the first matrix, as the host's slice leaves it. -/
theorem found_lower (c : Dev nD) : (V m c main_v20 : S128x128.Idx → EReal) = lower (m ((c : Thread nD τ).loc main_arg3)) := by
  have e : (V m c main_v20 : S128x128.Idx → EReal)
      = extractStridedSlice S128x128 ![128, 0] (m ((c : Thread nD τ).loc main_arg3)) slices_S256x128_S128x128_128_0 := by
    dsimp only [Gen.V, Gen.hostOps0]; after_results
  rw [e]
  funext j
  obtain ⟨a, b, rfl⟩ : ∃ (a : Fin 128) (b : Fin 128), j = ix2 a b := ⟨j 0, j 1, eq_ix2 j⟩
  exact slice2_axis0_apply 128 _ _ a b ⟨128 + a.val, Nat.add_lt_add_left a.isLt 128⟩ rfl

end Cert.KernelIdeal.Found

end
-- ==== Proof.KernelBlocks.lean ====
/-
  The blocks one grid point stages, read entry by entry off the arrays the region finds: row `p` of a row-blocked window
  at point `t` is row `5000 t + p` of its array, and a window staged whole is its array.  A block's coordinate on an axis is
  always the block index times the block's extent plus the coordinate inside the block.
-/
import proofs.«125193_j2843268350529_1_alg».proof.Proof.KernelFound

noncomputable section

namespace Cert.KernelIdeal.Blocks

open Cert.KernelIdeal Cert.KernelIdeal.Gen Cert.MlpSpec Idealize.ShloMosaic Idealize.ShloMosaic.TcCoe Idealize.SL.Sem
open Idealize.ShloMosaic.ValueIdx Cert.KernelIdeal.Found
open Idealize.ShloMosaic.Pipeline (Dat)

variable (m : (ℓ : Loc nD τ sig) → Buf (Elt Ideal) ℓ) (ρ : Dev nD → PrngReg)

/-! ## The blocks a point stages -/

/-- Row `p` of the first window's block at point `t`, for ANY contents `A` of its array, is row `5000 t + p` of `A`: a fact
    about where the block sits, not about what the array holds. -/
theorem rows_read0 (c : Dev nD) (t : Fin cfg0.N) (A : Buf (Elt Ideal) ((c : Thread nD τ).loc main_arg0)) (p : Fin 5000) (k : Fin 128) :
    ((cfg0.win 0).blk t).view.read (Elt Ideal) A (ix2 p k) = A (ix2 (rowOf t p) k) := by
  obtain ⟨e0, e1, -⟩ := idx_facts t
  show A (((cfg0.win 0).blk t).view.emb (ix2 p k)) = _
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The same for the second window, whose array is the aggregate. -/
theorem rows_read1 (c : Dev nD) (t : Fin cfg0.N) (A : Buf (Elt Ideal) ((c : Thread nD τ).loc main_v18)) (p : Fin 5000) (k : Fin 128) :
    ((cfg0.win 1).blk t).view.read (Elt Ideal) A (ix2 p k) = A (ix2 (rowOf t p) k) := by
  obtain ⟨-, -, e0, e1, -⟩ := idx_facts t
  show A (((cfg0.win 1).blk t).view.emb (ix2 p k)) = _
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- So the staged feature block's row `p` is the feature array's row `5000 t + p`, -/
theorem read_rows0 (c : Dev nD) (t : Fin cfg0.N) (p : Fin 5000) (k : Fin 128) :
    iblk m c 0 t (ix2 p k) = V m c main_arg0 (ix2 (rowOf t p) k) :=
  rows_read0 c t (V m c main_arg0) p k

/-- and the staged aggregate block's row `p` the aggregate's row `5000 t + p`. -/
theorem read_rows1 (c : Dev nD) (t : Fin cfg0.N) (p : Fin 5000) (k : Fin 128) :
    iblk m c 1 t (ix2 p k) = V m c main_v18 (ix2 (rowOf t p) k) :=
  rows_read1 c t (V m c main_v18) p k

theorem read_whole2 (c : Dev nD) (t : Fin cfg0.N) : (iblk m c 2 t : S128x128.Idx → EReal) = V m c main_v19 := by
  obtain ⟨-, -, -, -, e0, e1, -⟩ := idx_facts t
  funext j
  show V m c main_v19 (((cfg0.win 2).blk t).view.emb j) = _
  refine congrArg (V m c main_v19) (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

theorem read_whole3 (c : Dev nD) (t : Fin cfg0.N) : (iblk m c 3 t : S128x128.Idx → EReal) = V m c main_v20 := by
  obtain ⟨-, -, -, -, -, -, e0, e1, -⟩ := idx_facts t
  funext j
  show V m c main_v20 (((cfg0.win 3).blk t).view.emb j) = _
  refine congrArg (V m c main_v20) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem read_whole4 (c : Dev nD) (t : Fin cfg0.N) : (iblk m c 4 t : S128x128.Idx → EReal) = V m c main_arg5 := by
  obtain ⟨-, -, -, -, -, -, -, -, e0, e1, -⟩ := idx_facts t
  funext j
  show V m c main_arg5 (((cfg0.win 4).blk t).view.emb j) = _
  refine congrArg (V m c main_arg5) (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem read_whole5 (c : Dev nD) (t : Fin cfg0.N) : (iblk m c 5 t : S128.Idx → EReal) = V m c main_arg4 := by
  obtain ⟨-, -, -, -, -, -, -, -, -, -, e0, -⟩ := idx_facts t
  funext j
  show V m c main_arg4 (((cfg0.win 5).blk t).view.emb j) = _
  refine congrArg (V m c main_arg4) (funext fun a => Fin.ext ?_)
  match a with
  | ⟨0, _⟩ => show win0_5.index t (0 : Fin 1) * 128 + 1 * (j 0).val = (j 0).val; rw [e0]; omega

theorem read_whole6 (c : Dev nD) (t : Fin cfg0.N) : (iblk m c 6 t : S128.Idx → EReal) = V m c main_arg6 := by
  obtain ⟨-, -, -, -, -, -, -, -, -, -, -, e0, -⟩ := idx_facts t
  funext j
  show V m c main_arg6 (((cfg0.win 6).blk t).view.emb j) = _
  refine congrArg (V m c main_arg6) (funext fun a => Fin.ext ?_)
  match a with
  | ⟨0, _⟩ => show win0_6.index t (0 : Fin 1) * 128 + 1 * (j 0).val = (j 0).val; rw [e0]; omega

end Cert.KernelIdeal.Blocks

end
-- ==== Proof.KernelWhole.lean ====
/-
  The kernel's result array after the run is the perceptron `MlpSpec.mlp` of the arrays the region finds.

  A result row depends on the same node's rows only, so what point `t` writes back is block `t` of one whole-array function
  (`flushed_eq`); row `r` lies in the block of point `r / 5000`, so the ten blocks cover the array (`cover`), and the array
  ends holding that function (`final`).
-/
import proofs.«125193_j2843268350529_1_alg».proof.Proof.Gen.KernelIdeal.Value
import proofs.«125193_j2843268350529_1_alg».proof.Proof.KernelRow
import proofs.«125193_j2843268350529_1_alg».proof.Proof.KernelBlocks

noncomputable section

namespace Cert.KernelIdeal.Whole

open Cert.KernelIdeal Cert.KernelIdeal.Gen Cert.MlpSpec Idealize.ShloMosaic Idealize.ShloMosaic.TcCoe Idealize.SL.Sem
open Idealize.ShloMosaic.ValueIdx Cert.KernelIdeal.Found Cert.KernelIdeal.Blocks
open Idealize.ShloMosaic.Pipeline (Dat)

variable (m : (ℓ : Loc nD τ sig) → Buf (Elt Ideal) ℓ) (ρ : Dev nD → PrngReg)

/-! ## What a point writes back, the cover, the array -/

/-- The perceptron of the arrays the region finds, the two halves of the first matrix being the argument's. -/
abbrev result (c : Dev nD) : S50000x128.Idx → EReal :=
  mlp (m ((c : Thread nD τ).loc main_arg0)) (V m c main_v18) (m ((c : Thread nD τ).loc main_arg3))
    (m ((c : Thread nD τ).loc main_arg4)) (m ((c : Thread nD τ).loc main_arg5)) (m ((c : Thread nD τ).loc main_arg6))

/-- What point `t` writes back is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S5000x128) hz, View.ld_unit_zero (S := S128x128) hz, View.ld_unit_zero (S := S128) hz1]
  obtain ⟨-, -, -, -, -, -, -, -, -, -, -, -, e0, e1⟩ := idx_facts t
  funext y
  obtain ⟨p, q, rfl⟩ : ∃ (p : Fin 5000) (q : Fin 128), y = ix2 p q := ⟨y 0, y 1, eq_ix2 y⟩
  have hemb : ((cfg0.win 7).blk t).view.emb (ix2 p q) = ix2 (rowOf t p) q := by
    funext a; apply Fin.ext
    match a with
    | ⟨0, _⟩ => show win0_7.index t (0 : Fin 2) * 5000 + 1 * p.val = t.val * 5000 + p.val; rw [e0]; omega
    | ⟨1, _⟩ => show win0_7.index t (1 : Fin 2) * 128 + 1 * q.val = q.val; rw [e1]; omega
  show k0_pay1 (F := Ideal) (iblk m c 0 t) (iblk m c 1 t) (iblk m c 2 t) (iblk m c 3 t) (iblk m c 5 t) (iblk m c 4 t) (iblk m c 6 t) (ix2 p q)
    = result m c (((cfg0.win 7).blk t).view.emb (ix2 p q))
  rw [hemb]
  refine (Row.pay_apply (iblk m c 0 t) (iblk m c 1 t) (iblk m c 2 t) (iblk m c 3 t) (iblk m c 5 t) (iblk m c 4 t) (iblk m c 6 t) p q).trans ?_
  rw [read_whole2, read_whole3, read_whole4, read_whole5, read_whole6, found_upper, found_lower,
    V_main_arg4, V_main_arg5, V_main_arg6]
  simp only [read_rows0, read_rows1, V_main_arg0]
  rfl

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v21).slice (win0_7.rect t)).set ↔ _
  rw [View.set_slice_whole, Rect.mem_set_unit]
  exact Iff.rfl

/-- Row `r` is in the block of point `r / 5000`. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, -, e0, e1⟩ := idx_facts t
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e0]; show (i 0).val / 5000 * 5000 ≤ (i 0).val ∧ (i 0).val < (i 0).val / 5000 * 5000 + 5000; omega
  | ⟨1, _⟩ =>
    show win0_7.index t (1 : Fin 2) * 128 ≤ (i 1).val ∧ (i 1).val < win0_7.index t (1 : Fin 2) * 128 + 128
    rw [e1]; omega

/-- The result array after the run. -/
theorem final (c : Dev nD) : (dats m 0 c).arrAt 7 cfg0.N = result m c :=
  (dats m 0 c).arrAt_eq_of_cover 7 (result m c) (fun t _ => flushed_eq m c t) cover

/-- The kernel's run: the result array holds `result`, the arguments are unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefMlp.lean ====
/-
  The reference's result, entry by entry, is the perceptron `MlpSpec.mlp` of its arguments, with the aggregate the array its
  two scatter-additions leave.

  The reference joins each node's feature row and aggregate row into one row of 256 entries and multiplies by the whole
  256 × 128 matrix; entry `k < 128` of the joined row is the feature row's entry `k` and entry `128 + k` the aggregate
  row's entry `k`, so the product is the sum of the two half products (`MlpSpec.joined_sum`).  The rest is the same
  arithmetic on both sides: the bias row repeated down the rows, the maximum with zero, the second product and bias.
-/
import proofs.«125193_j2843268350529_1_alg».proof.Proof.Gen.ReferenceIdeal.Read
import proofs.«125193_j2843268350529_1_alg».proof.Proof.MlpSpec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Cert.MlpSpec
open Idealize.ShloMosaic Idealize.ShloMosaic.ValueIdx

/-- Entry `k < 128` of node `r`'s joined row is entry `k` of its feature row. -/
theorem joined_lo (x e : FVec Ideal S50000x128 .f32) (r : Fin 50000) (k : Fin 128) :
    concatenate S50000x256 1 [⟨S50000x128, x⟩, ⟨S50000x128, e⟩] concatenates_S50000x128_S50000x128_S50000x256_d1
      (ix2 r (⟨k.val, Nat.lt_trans k.isLt (by decide)⟩ : Fin 256)) = x (ix2 r k) :=
  concatenate_pair_apply_left (t := S50000x256) 1 x e concatenates_S50000x128_S50000x128_S50000x256_d1 _ rfl (ix2 r k) fun b => by
    match b with
    | ⟨0, _⟩ => rfl
    | ⟨1, _⟩ => rfl

/-- Entry `128 + k` of node `r`'s joined row is entry `k` of its aggregate row. -/
theorem joined_hi (x e : FVec Ideal S50000x128 .f32) (r : Fin 50000) (k : Fin 128) :
    concatenate S50000x256 1 [⟨S50000x128, x⟩, ⟨S50000x128, e⟩] concatenates_S50000x128_S50000x128_S50000x256_d1
      (ix2 r (⟨128 + k.val, Nat.add_lt_add_left k.isLt 128⟩ : Fin 256)) = e (ix2 r k) :=
  concatenate_pair_apply_right (t := S50000x256) 1 x e concatenates_S50000x128_S50000x128_S50000x256_d1 _ rfl rfl (ix2 r k) (fun b hb => by
    match b, hb with
    | ⟨0, _⟩, _ => rfl
    | ⟨1, _⟩, hb => exact absurd rfl hb) (by show k.val + 128 = 128 + k.val; omega)

variable (x0 : (⟨S50000x128, .f32⟩ : BufTy).Contents (Elt Ideal)) (x1 : (⟨S2x600000, .i32⟩ : BufTy).Contents (Elt Ideal))
  (x2 : (⟨S600000x128, .f32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The rectified first layer at `(r, l)` is `MlpSpec.firstLayer` of node `r`'s two rows and the matrix's two halves. -/
theorem relu_apply (r : Fin 50000) (l : Fin 128) :
    val_main_v24 (F := Ideal) x0 x1 x2 x3 x4 (ix2 r l)
      = firstLayer (fun k => x0 (ix2 r k)) (fun k => val_main_v18 (F := Ideal) x1 x2 (ix2 r k)) (upper x3) (lower x3) x4 l := by
  have eb : idx_main_v21 (idx_main_v22 (ix2 r l)) = ix1 l := funext fun a => Fin.ext (by match a with | ⟨0, _⟩ => rfl)
  rw [val_main_v24_apply, val_main_v23_apply, val_main_v20_apply, val_main_v22_apply, val_main_v21_apply,
    val_main_call0_v0_apply, val_main_call0_cst_apply, eb]
  have hs := joined_sum (fun k => x0 (ix2 r k)) (fun k => val_main_v18 (F := Ideal) x1 x2 (ix2 r k)) x3 l
    (fun k' => val_main_v19 (F := Ideal) x0 x1 x2 (ix2 r k')) (fun k => joined_lo x0 _ r k) (fun k => joined_hi x0 _ r k)
  have es : (∑ k : Fin 256, val_main_v19 (F := Ideal) x0 x1 x2 (lidx_main_v20 (ix2 r l) k) * x3 (ridx_main_v20 (ix2 r l) k))
      = ∑ k : Fin 256, val_main_v19 (F := Ideal) x0 x1 x2 (ix2 r k) * x3 (ix2 k l) :=
    Finset.sum_congr rfl fun k _ => by
      have e1 : lidx_main_v20 (ix2 r l) k = ix2 r k := funext fun a => Fin.ext (by match a with | ⟨0, _⟩ => rfl | ⟨1, _⟩ => rfl)
      have e2 : ridx_main_v20 (ix2 r l) k = ix2 k l := funext fun a => Fin.ext (by match a with | ⟨0, _⟩ => rfl | ⟨1, _⟩ => rfl)
      rw [e1, e2]
  rw [es, hs]
  simp only [Ideal.addf_def, Ideal.maximumf_def, Ideal.ofBits_def, Ideal.ofBits_zero_f32]
  rfl

/-- The reference's result is the perceptron of its arguments and its aggregate. -/
theorem result_eq :
    val_main_v28 (F := Ideal) x0 x1 x2 x3 x4 x5 x6 = mlp x0 (val_main_v18 (F := Ideal) x1 x2) x3 x4 x5 x6 := by
  funext i
  obtain ⟨r, q, rfl⟩ : ∃ (r : Fin 50000) (q : Fin 128), i = ix2 r q := ⟨i 0, i 1, eq_ix2 i⟩
  have eb : idx_main_v26 (idx_main_v27 (ix2 r q)) = ix1 q := funext fun a => Fin.ext (by match a with | ⟨0, _⟩ => rfl)
  rw [val_main_v28_apply, val_main_v25_apply, val_main_v27_apply, val_main_v26_apply, eb, mlp_apply]
  have es : (∑ l : Fin 128, val_main_v24 (F := Ideal) x0 x1 x2 x3 x4 (lidx_main_v25 (ix2 r q) l) * x5 (ridx_main_v25 (ix2 r q) l))
      = ∑ l : Fin 128, firstLayer (fun k => x0 (ix2 r k)) (fun k => val_main_v18 (F := Ideal) x1 x2 (ix2 r k)) (upper x3) (lower x3) x4 l
          * x5 (ix2 l q) :=
    Finset.sum_congr rfl fun l _ => by
      have e1 : lidx_main_v25 (ix2 r q) l = ix2 r l := funext fun a => Fin.ext (by match a with | ⟨0, _⟩ => rfl | ⟨1, _⟩ => rfl)
      have e2 : ridx_main_v25 (ix2 r q) l = ix2 l q := funext fun a => Fin.ext (by match a with | ⟨0, _⟩ => rfl | ⟨1, _⟩ => rfl)
      rw [e1, e2, relu_apply]
  rw [es]
  rfl

end Cert.ReferenceIdeal.RefValue

end
-- ==== Proof.Aggregate.lean ====
/-
  The edge aggregate is the same array in both programs.

  Each program adds every edge's feature row into the rows of the edge's two endpoints: it takes the two rows of the index
  array, wraps a negative index by adding 50000, and scatter-adds the edge features into an array of zeros at the first
  row's indices and then, into that, at the second row's.  The two programs spell these host operations identically, so
  the array the kernel's region finds for its second window is the reference's aggregate of the same two arguments.
-/
import proofs.«125193_j2843268350529_1_alg».proof.Proof.Gen.KernelIdeal.Frame
import proofs.«125193_j2843268350529_1_alg».proof.Proof.Gen.ReferenceIdeal.Read
import Idealize.ShloMosaic.Lib.StableHlo.Run

noncomputable section

namespace Cert.Aggregate

open Idealize.ShloMosaic Idealize.ShloMosaic.TcCoe Idealize.SL.Sem Idealize.ShloMosaic.StableHlo

/-- The aggregate the kernel's region finds is the reference's aggregate of the same two arguments. -/
theorem found_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v18 : Cert.KernelIdeal.S50000x128.Idx → EReal)
      = Cert.ReferenceIdeal.Read.val_main_v18 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  dsimp only [Cert.KernelIdeal.Gen.V, Cert.KernelIdeal.Gen.hostOps0]
  after_results_simp <;> rfl

end Cert.Aggregate

end
-- ==== Proof.lean ====
/-
  A fused two-layer perceptron over node features and an edge aggregate, against the plain formulation.

  Both programs first add every edge's feature row into the rows of its two endpoints (two scatter-additions into zeros,
  the same host operations of the same two arguments).  The kernel then walks the 50000 nodes in ten blocks of 5000 rows:
  each block's rows times the upper half of the 256 × 128 matrix, plus the aggregate's rows times the lower half, plus the
  bias, rectified, times the second matrix, plus the second bias.  The reference joins features and aggregate into rows of
  256 entries and multiplies by the whole matrix.

  On the extended reals a change of float format is the identity and every product is the exact sum over the contracted
  coordinate, so the two results differ only in how the sum over the 256 joined coordinates is grouped: the whole sum
  against the sum of its two halves.  That is associativity and commutativity of addition, which hold on the extended
  reals without any finiteness, so the precondition is never opened.

  The parts: `MlpSpec` states the perceptron row by row and proves the splitting of the sum; `RefMlp` reads the
  reference's result at an index; `KernelRow` reads one block of the kernel at an index; `KernelWhole` goes from the ten
  blocks to the whole array.  `Aggregate` identifies the aggregate the kernel's region finds with the reference's.  Below, the five claims are
  assembled.
-/
import proofs.«125193_j2843268350529_1_alg».proof.Defs
import proofs.«125193_j2843268350529_1_alg».proof.Proof.Gen.Kernel
import proofs.«125193_j2843268350529_1_alg».proof.Proof.Gen.Kernel.Skeleton
import proofs.«125193_j2843268350529_1_alg».proof.Proof.Gen.Kernel.Launch
import proofs.«125193_j2843268350529_1_alg».proof.Proof.Gen.Kernel.Points
import proofs.«125193_j2843268350529_1_alg».proof.Proof.Gen.Kernel.Frame
import proofs.«125193_j2843268350529_1_alg».proof.Proof.Gen.KernelIdeal
import proofs.«125193_j2843268350529_1_alg».proof.Proof.Gen.KernelIdeal.Skeleton
import proofs.«125193_j2843268350529_1_alg».proof.Proof.Gen.KernelIdeal.Launch
import proofs.«125193_j2843268350529_1_alg».proof.Proof.Gen.KernelIdeal.Points
import proofs.«125193_j2843268350529_1_alg».proof.Proof.Gen.KernelIdeal.Frame
import proofs.«125193_j2843268350529_1_alg».proof.Proof.Gen.ReferenceIdeal
import proofs.«125193_j2843268350529_1_alg».proof.Proof.Gen.KernelIdeal.Value
import proofs.«125193_j2843268350529_1_alg».proof.Proof.Gen.ReferenceIdeal.Run
import proofs.«125193_j2843268350529_1_alg».proof.Proof.Gen.ReferenceIdeal.Read
import proofs.«125193_j2843268350529_1_alg».proof.Proof.Gen.Pre_finite_inputs
import proofs.«125193_j2843268350529_1_alg».proof.Proof.KernelWhole
import proofs.«125193_j2843268350529_1_alg».proof.Proof.RefMlp
import proofs.«125193_j2843268350529_1_alg».proof.Proof.Aggregate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealizing pass rewrote nothing: the idealized kernel is the kernel's own text read on the extended reals. -/
theorem preserves : Cert.preserves_Kernel_KernelIdeal := trivial

/-- Both runs end with the perceptron of the arguments and the common aggregate. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2, ← Cert.Aggregate.found_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
